-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x64x128 : Shape := ⟨4, ![4096, 2, 64, 128]⟩
abbrev S4096 : Shape := ⟨1, ![4096]⟩
abbrev S2x128x128 : Shape := ⟨3, ![2, 128, 128]⟩
abbrev S2x128 : Shape := ⟨2, ![2, 128]⟩
abbrev S128x128 : Shape := ⟨2, ![128, 128]⟩
abbrev S128 : Shape := ⟨1, ![128]⟩
abbrev S_ : Shape := ⟨0, ![]⟩

class Facts : Prop where
  bcast_S_S4096x2x64x128 : S_.BroadcastsInDim S4096x2x64x128 (![] : Fin 0 → Fin S4096x2x64x128.rank)
  reducesTo_S4096x2x64x128_S_d0_1_2_3 : S4096x2x64x128.ReducesTo [0, 1, 2, 3] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S4096x2x64x128 .f32) (main_arg1 : IVec S4096 32) (main_arg2 : FVec F S2x128x128 .f32) (main_arg3 : FVec F S2x128 .f32) (main_arg4 : FVec F S128x128 .f32) (main_arg5 : FVec F S128 .f32) : IVec S_ 1 :=
  let main_v0 : FVec F S4096x2x64x128 .f32 := Host.absf main_arg0
  let main_cst : FVec F S_ .f32 := constant S_ .f32 0x7F800000#32
  let main_v1 : FVec F S4096x2x64x128 .f32 := broadcastInDim S4096x2x64x128 ![] bcast_S_S4096x2x64x128 main_cst
  let main_v2 : IVec S4096x2x64x128 1 := cmpf .olt main_v0 main_v1
  let main_c : IVec S_ 1 := constantI S_ 1 1#1
  let main_v3 : IVec S_ 1 := (fun x v => Host.reduce IntOp.andi x v reducesTo_S4096x2x64x128_S_d0_1_2_3 h_S_) main_v2 main_c
  let main_v4 : FVec F S2x128x128 .f32 := Host.absf main_arg2
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S4096x2x64x128 : Shape := ⟨4, ![4096, 2, 64, 128]⟩
abbrev S4096 : Shape := ⟨1, ![4096]⟩
abbrev S2x128x128 : Shape := ⟨3, ![2, 128, 128]⟩
abbrev S2x128 : Shape := ⟨2, ![2, 128]⟩
abbrev S128x128 : Shape := ⟨2, ![128, 128]⟩
abbrev S128 : Shape := ⟨1, ![128]⟩
abbrev S_ : Shape := ⟨0, ![]⟩
abbrev S1x128 : Shape := ⟨2, ![1, 128]⟩
abbrev S4096x1 : Shape := ⟨2, ![4096, 1]⟩
abbrev S4096x4096 : Shape := ⟨2, ![4096, 4096]⟩
abbrev S128x2x64x128 : Shape := ⟨4, ![128, 2, 64, 128]⟩
abbrev S128x1 : Shape := ⟨2, ![128, 1]⟩
abbrev S128x4096 : Shape := ⟨2, ![128, 4096]⟩
abbrev S128x1x1 : Shape := ⟨3, ![128, 1, 1]⟩
abbrev S128x1x64x128 : Shape := ⟨4, ![128, 1, 64, 128]⟩
abbrev S128x64x128 : Shape := ⟨3, ![128, 64, 128]⟩
abbrev S8192x128 : Shape := ⟨2, ![8192, 128]⟩
abbrev S128x64x64 : Shape := ⟨3, ![128, 64, 64]⟩
abbrev S4096x64x64 : Shape := ⟨3, ![4096, 64, 64]⟩

abbrev nBuf : Space → Nat
  | .hbm => 18
  | .vmem => 10
  | .smem => 0
  | _ => 0

abbrev bufTy : (tb : Table) → Fin (tcTables nBuf tb) → BufTy
  | .hbm, ⟨0, _⟩ => ⟨S4096x2x64x128, .f32⟩
  | .hbm, ⟨1, _⟩ => ⟨S4096, .i32⟩
  | .hbm, ⟨2, _⟩ => ⟨S2x128x128, .f32⟩
  | .hbm, ⟨3, _⟩ => ⟨S2x128, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S128x128, .f32⟩
  | .hbm, ⟨8, _⟩ => ⟨S128x128, .bf16⟩
  | .hbm, ⟨9, _⟩ => ⟨S128x128, .bf16⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S1x128, .f32⟩
  | .hbm, ⟨14, _⟩ => ⟨S4096, .f32⟩
  | .hbm, ⟨15, _⟩ => ⟨S4096x1, .f32⟩
  | .hbm, ⟨16, _⟩ => ⟨S4096x4096, .f32⟩
  | .hbm, ⟨17, _⟩ => ⟨S4096x64x64, .f32⟩
  | .local _ .vmem, ⟨0, _⟩ => ⟨S128x2x64x128, .f32⟩
  | .local _ .vmem, ⟨1, _⟩ => ⟨S128x2x64x128, .f32⟩
  | .local _ .vmem, ⟨2, _⟩ => ⟨S128x1, .f32⟩
  | .local _ .vmem, ⟨3, _⟩ => ⟨S128x1, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S1x128, .f32⟩
  | .local _ .vmem, ⟨8, _⟩ => ⟨S128x4096, .f32⟩
  | .local _ .vmem, ⟨9, _⟩ => ⟨S128x4096, .f32⟩
  | _, _ => ⟨S4096x2x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S2x128x128_S128x128_d0 : S2x128x128.ReducesTo [0] S128x128
  h_S_ : 0 < S_.numel
  bitsLt_bf16_f32 : FTy.bits .bf16 < FTy.bits .f32
  reducesTo_S2x128_S128_d0 : S2x128.ReducesTo [0] S128
  shapeCasts_S128_S1x128 : S128.ShapeCasts S1x128
  shapeCasts_S4096_S4096x1 : S4096.ShapeCasts S4096x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S128x1_S128x1x1 : S128x1.ShapeCasts S128x1x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x2x64x128_S128x1x64x128_0_0_0_0 : ∀ a, (![0, 0, 0, 0] : Fin 4 → Nat) a + S128x1x64x128.size a ≤ S128x2x64x128.size a
  h_S128x1x64x128 : 0 < S128x1x64x128.numel
  shapeCasts_S128x1x64x128_S128x64x128 : S128x1x64x128.ShapeCasts S128x64x128
  shapeCasts_S128x64x128_S8192x128 : S128x64x128.ShapeCasts S8192x128
  broadcasts_S1x128_S8192x128 : S1x128.Broadcasts S8192x128
  shapeCasts_S8192x128_S128x64x128 : S8192x128.ShapeCasts S128x64x128
  broadcasts_S128x1x1_S128x64x128 : S128x1x1.Broadcasts S128x64x128
  inb_S128x2x64x128_S128x1x64x128_0_1_0_0 : ∀ a, (![0, 1, 0, 0] : Fin 4 → Nat) a + S128x1x64x128.size a ≤ S128x2x64x128.size a
  shapeCasts_S128x64x64_S128x4096 : S128x64x64.ShapeCasts S128x4096
  inb_S128x4096_S128x4096_0_0 : ∀ a, (![0, 0] : Fin 2 → Nat) a + S128x4096.size a ≤ S128x4096.size a
  h_S128x4096 : 0 < S128x4096.numel
  shapeCasts_S4096x4096_S4096x64x64 : S4096x4096.ShapeCasts S4096x64x64
  dot_S8192x128_S128x128_S8192x128_1_0_0_1_n_n_wf : DotDims.WF S8192x128 S128x128 S8192x128 [1] [0] [0] [1] [] []
  dot_S128x64x128_S128x64x128_S128x64x64_2_2_1_1_0_0_wf : DotDims.WF S128x64x128 S128x64x128 S128x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2x64x128.size a ≤ S4096x2x64x128.size a
  hwx0_0 : ∀ i : grid0.Coords, EltTy.bits .f32 = 32 ∨ (Rect.block (s := S4096x2x64x128) S128x2x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S4096x1.size a
  hwx0_1 : ∀ i : grid0.Coords, EltTy.bits .f32 = 32 ∨ (Rect.block (s := S4096x1) S128x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S4096x4096.size a
  hwx0_6 : ∀ i : grid0.Coords, EltTy.bits .f32 = 32 ∨ (Rect.block (s := S4096x4096) S128x4096.size (cc0_transform_6 i) (hinb0_6 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S128x64x128_S128x64x128_S128x64x64_2_2_1_1_0_0 : DotDims S128x64x128 S128x64x128 S128x64x64 where
  lhsContracting := [2]
  rhsContracting := [2]
  lhsNonContracting := [1]
  rhsNonContracting := [1]
  lhsBatch := [0]
  rhsBatch := [0]
  wf := dot_S128x64x128_S128x64x128_S128x64x64_2_2_1_1_0_0_wf

abbrev win0_0 : Pipeline.Window sig grid0 :=
  Pipeline.Window.ofSpec (Memref.whole main_arg0) S128x2x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S128x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x2x64x128 : Shape := ⟨4, ![4096, 2, 64, 128]⟩
abbrev S4096 : Shape := ⟨1, ![4096]⟩
abbrev S2x128x128 : Shape := ⟨3, ![2, 128, 128]⟩
abbrev S2x128 : Shape := ⟨2, ![2, 128]⟩
abbrev S128x128 : Shape := ⟨2, ![128, 128]⟩
abbrev S128 : Shape := ⟨1, ![128]⟩
abbrev S_ : Shape := ⟨0, ![]⟩
abbrev S1x1x1x128 : Shape := ⟨4, ![1, 1, 1, 128]⟩
abbrev S4096x1x1x1 : Shape := ⟨4, ![4096, 1, 1, 1]⟩
abbrev S4096x1x64x128 : Shape := ⟨4, ![4096, 1, 64, 128]⟩
abbrev S4096x64x128 : Shape := ⟨3, ![4096, 64, 128]⟩
abbrev S4096x64x64 : Shape := ⟨3, ![4096, 64, 64]⟩

abbrev nBuf : Space → Nat
  | .hbm => 31
  | .vmem => 0
  | .smem => 0
  | _ => 0

abbrev bufTy : (tb : Table) → Fin (tcTables nBuf tb) → BufTy
  | .hbm, ⟨0, _⟩ => ⟨S4096x2x64x128, .f32⟩
  | .hbm, ⟨1, _⟩ => ⟨S4096, .i32⟩
  | .hbm, ⟨2, _⟩ => ⟨S2x128x128, .f32⟩
  | .hbm, ⟨3, _⟩ => ⟨S2x128, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S128x128, .f32⟩
  | .hbm, ⟨8, _⟩ => ⟨S_, .f32⟩
  | .hbm, ⟨9, _⟩ => ⟨S128, .f32⟩
  | .hbm, ⟨10, _⟩ => ⟨S4096x2x64x128, .f32⟩
  | .hbm, ⟨11, _⟩ => ⟨S1x1x1x128, .f32⟩
  | .hbm, ⟨12, _⟩ => ⟨S4096x2x64x128, .f32⟩
  | .hbm, ⟨13, _⟩ => ⟨S4096x2x64x128, .f32⟩
  | .hbm, ⟨14, _⟩ => ⟨S4096x2x64x128, .f32⟩
  | .hbm, ⟨15, _⟩ => ⟨S1x1x1x128, .f32⟩
  | .hbm, ⟨16, _⟩ => ⟨S4096x2x64x128, .f32⟩
  | .hbm, ⟨17, _⟩ => ⟨S4096x2x64x128, .f32⟩
  | .hbm, ⟨18, _⟩ => ⟨S4096, .f32⟩
  | .hbm, ⟨19, _⟩ => ⟨S4096x1x1x1, .f32⟩
  | .hbm, ⟨20, _⟩ => ⟨S4096x2x64x128, .f32⟩
  | .hbm, ⟨21, _⟩ => ⟨S4096x2x64x128, .f32⟩
  | .hbm, ⟨22, _⟩ => ⟨S4096x2x64x128, .f32⟩
  | .hbm, ⟨23, _⟩ => ⟨S_, .f32⟩
  | .hbm, ⟨24, _⟩ => ⟨S4096x2x64x128, .f32⟩
  | .hbm, ⟨25, _⟩ => ⟨S4096x2x64x128, .f32⟩
  | .hbm, ⟨26, _⟩ => ⟨S4096x1x64x128, .f32⟩
  | .hbm, ⟨27, _⟩ => ⟨S4096x64x128, .f32⟩
  | .hbm, ⟨28, _⟩ => ⟨S4096x1x64x128, .f32⟩
  | .hbm, ⟨29, _⟩ => ⟨S4096x64x128, .f32⟩
  | .hbm, ⟨30, _⟩ => ⟨S4096x64x64, .f32⟩
  | _, _ => ⟨S4096x2x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S2x128x128_S128x128_d0 : S2x128x128.ReducesTo [0] S128x128
  h_S_ : 0 < S_.numel
  reducesTo_S2x128_S128_d0 : S2x128.ReducesTo [0] S128
  bcast_S128_S1x1x1x128_3 : S128.BroadcastsInDim S1x1x1x128 (![3] : Fin 1 → Fin S1x1x1x128.rank)
  bcast_S1x1x1x128_S4096x2x64x128_0_1_2_3 : S1x1x1x128.BroadcastsInDim S4096x2x64x128 (![0, 1, 2, 3] : Fin 4 → Fin S4096x2x64x128.rank)
  bcast_S4096_S4096x1x1x1_0 : S4096.BroadcastsInDim S4096x1x1x1 (![0] : Fin 1 → Fin S4096x1x1x1.rank)
  bcast_S4096x1x1x1_S4096x2x64x128_0_1_2_3 : S4096x1x1x1.BroadcastsInDim S4096x2x64x128 (![0, 1, 2, 3] : Fin 4 → Fin S4096x2x64x128.rank)
  bcast_S_S4096x2x64x128 : S_.BroadcastsInDim S4096x2x64x128 (![] : Fin 0 → Fin S4096x2x64x128.rank)
  slices_S4096x2x64x128_S4096x1x64x128_0_0_0_0 : S4096x2x64x128.Slices ![0, 0, 0, 0] S4096x1x64x128
  shapeCasts_S4096x1x64x128_S4096x64x128 : S4096x1x64x128.ShapeCasts S4096x64x128
  slices_S4096x2x64x128_S4096x1x64x128_0_1_0_0 : S4096x2x64x128.Slices ![0, 1, 0, 0] S4096x1x64x128
  dot_S4096x2x64x128_S128x128_S4096x2x64x128_3_0_012_1_n_n_wf : DotDims.WF S4096x2x64x128 S128x128 S4096x2x64x128 [3] [0] [0, 1, 2] [1] [] []
  dot_S4096x64x128_S4096x64x128_S4096x64x64_2_2_1_1_0_0_wf : DotDims.WF S4096x64x128 S4096x64x128 S4096x64x64 [2] [2] [1] [1] [0] [0]

variable [Facts₀]

def dot_S4096x2x64x128_S128x128_S4096x2x64x128_3_0_012_1_n_n : DotDims S4096x2x64x128 S128x128 S4096x2x64x128 where
  lhsContracting := [3]
  rhsContracting := [0]
  lhsNonContracting := [0, 1, 2]
  rhsNonContracting := [1]
  lhsBatch := []
  rhsBatch := []
  wf := dot_S4096x2x64x128_S128x128_S4096x2x64x128_3_0_012_1_n_n_wf
def dot_S4096x64x128_S4096x64x128_S4096x64x64_2_2_1_1_0_0 : DotDims S4096x64x128 S4096x64x128 S4096x64x64 where
  lhsContracting := [2]
  rhsContracting := [2]
  lhsNonContracting := [1]
  rhsNonContracting := [1]
  lhsBatch := [0]
  rhsBatch := [0]
  wf := dot_S4096x64x128_S4096x64x128_S4096x64x64_2_2_1_1_0_0_wf

class Facts : Prop extends Facts₀ where

variable [Facts]
-- ==== Proof.PairScore.lean ====
/-
  The value both programs compute, per sample.

  A sample n carries two groups of 64 nodes ("left" nodes, pair index 0, and "right" nodes, pair index 1), every
  node a feature row of 128 reals, and one degree g.  A node with feature row x has the hidden row

      hidden x o = max (g · (∑ d, x d · Ws d o + bs o) + (∑ d, x d · W0 d o + b0 o)) 0        (o < 128),

  the degree-weighted relation layer (the relation weights and biases already summed over the relations:
  Ws, bs) plus the self-loop layer (W0, b0), rectified.  The sample's result is the 64 × 64 table of scores

      score x y = ∑ o, hidden x o · hidden y o

  of a left node x against a right node y.  Everything is read on the extended reals; no law beyond the
  definitions is needed to compare the two programs, since both spell exactly these sums and products in this
  order.
-/
import Idealize.ShloMosaic.PureOps.Ideal
import Idealize.ShloMosaic.Lib.ValueIdx

noncomputable section

namespace Cert.PairScore

open Idealize.ShloMosaic

/-- The rectified hidden row of a node with feature row `x` in a sample of degree `g`, at output feature `o`. -/
def hidden (x : Fin 128 → EReal) (g : EReal) (Ws W0 : Fin 128 → Fin 128 → EReal) (bs b0 : Fin 128 → EReal)
    (o : Fin 128) : EReal :=
  max (g * ((∑ d : Fin 128, x d * Ws d o) + bs o) + ((∑ d : Fin 128, x d * W0 d o) + b0 o))
    (Ideal.ofBits .f32 0x00000000#32)

/-- The score of a left node `x` against a right node `y` of one sample: the dot product of their hidden rows. -/
def score (x y : Fin 128 → EReal) (g : EReal) (Ws W0 : Fin 128 → Fin 128 → EReal) (bs b0 : Fin 128 → EReal) : EReal :=
  ∑ o : Fin 128, hidden x g Ws W0 bs b0 o * hidden y g Ws W0 bs b0 o

end Cert.PairScore

end
-- ==== Proof.RefScore.lean ====
/-
  The reference program's result, read at an index, is the per-sample score.

  The reference forms the hidden rows of all 4096 × 2 × 64 nodes at once (two contractions of the node features
  with the summed relation weights and with the self-loop weights, the biases broadcast along the last axis, the
  degree broadcast along the first), rectifies, cuts the array into its left and right halves along the pair axis,
  and contracts the two halves over the hidden feature, sample by sample.  Read at (n, r, k), that is the score of
  left node r against right node k of sample n.
-/
import proofs.«158311_j9929964389089_2_alg».proof.Proof.Gen.ReferenceIdeal.Read
import proofs.«158311_j9929964389089_2_alg».proof.Proof.PairScore

noncomputable section

namespace Cert.ReferenceIdeal.RefScore

open Cert.ReferenceIdeal Cert.ReferenceIdeal.Gen Cert.ReferenceIdeal.Read Idealize.ShloMosaic Idealize.ShloMosaic.ValueIdx
open Cert.PairScore

/-- The hidden array's entry that the left half's (n, r, o) reads: node r of pair index 0. -/
theorem left_idx (n : Fin 4096) (r k : Fin 64) (o : Fin 128) :
    idx_main_v16 (idx_main_v17 (lidx_main_v20 (ix3 n r k) o)) = ix4 n (0 : Fin 2) r o := by
  funext a; apply Fin.ext
  have hn := n.isLt; have hr := r.isLt; have ho := o.isLt
  match a with
  | ⟨0, _⟩ => show ((n.val * 64 + r.val) * 128 + o.val) / 8192 = n.val; omega
  | ⟨1, _⟩ => rfl
  | ⟨2, _⟩ => show ((n.val * 64 + r.val) * 128 + o.val) / 128 % 64 = r.val; omega
  | ⟨3, _⟩ => show ((n.val * 64 + r.val) * 128 + o.val) % 128 = o.val; omega

/-- The hidden array's entry that the right half's (n, k, o) reads: node k of pair index 1. -/
theorem right_idx (n : Fin 4096) (r k : Fin 64) (o : Fin 128) :
    idx_main_v18 (idx_main_v19 (ridx_main_v20 (ix3 n r k) o)) = ix4 n (1 : Fin 2) k o := by
  funext a; apply Fin.ext
  have hn := n.isLt; have hk := k.isLt; have ho := o.isLt
  match a with
  | ⟨0, _⟩ => show ((n.val * 64 + k.val) * 128 + o.val) / 8192 = n.val; omega
  | ⟨1, _⟩ => rfl
  | ⟨2, _⟩ => show ((n.val * 64 + k.val) * 128 + o.val) / 128 % 64 = k.val; omega
  | ⟨3, _⟩ => show ((n.val * 64 + k.val) * 128 + o.val) % 128 = o.val; omega

/-- The rectified hidden array at (n, p, r, o) is the hidden row of node r of pair index p of sample n. -/
theorem hidden_apply (x0 : (⟨S4096x2x64x128, .f32⟩ : BufTy).Contents (Elt Ideal)) (x1 : (⟨S4096, .i32⟩ : BufTy).Contents (Elt Ideal))
    (x2 : (⟨S2x128x128, .f32⟩ : BufTy).Contents (Elt Ideal)) (x3 : (⟨S2x128, .f32⟩ : BufTy).Contents (Elt Ideal))
    (x4 : (⟨S128x128, .f32⟩ : BufTy).Contents (Elt Ideal)) (x5 : (⟨S128, .f32⟩ : BufTy).Contents (Elt Ideal))
    (n : Fin 4096) (p : Fin 2) (r : Fin 64) (o : Fin 128) :
    val_main_v15 (F := Ideal) x0 x1 x2 x3 x4 x5 (ix4 n p r o)
      = hidden (fun d => x0 (ix4 n p r d)) (val_main_v10 (F := Ideal) x1 (ix1 n)) (fun d o => val_main_v0 (F := Ideal) x2 (ix2 d o))
          (fun d o => x4 (ix2 d o)) (fun o => val_main_v1 (F := Ideal) x3 (ix1 o)) (fun o => x5 (ix1 o)) o := by
  rw [val_main_v15_apply, val_main_v14_apply, val_main_v13_apply, val_main_v12_apply, val_main_v11_apply, val_main_v5_apply,
    val_main_v2_apply, val_main_v4_apply, val_main_v3_apply, val_main_v9_apply, val_main_v6_apply, val_main_v8_apply,
    val_main_v7_apply, val_main_call0_v0_apply, val_main_call0_cst_apply]
  have e1 : idx_main_v11 (idx_main_v12 (ix4 n p r o)) = ix1 n := funext fun a => Fin.ext (by match a with | ⟨0, _⟩ => rfl)
  have e2 : ∀ k : Fin 128, lidx_main_v2 (ix4 n p r o) k = ix4 n p r k := fun k => funext fun a => Fin.ext (by
    match a with | ⟨0, _⟩ => rfl | ⟨1, _⟩ => rfl | ⟨2, _⟩ => rfl | ⟨3, _⟩ => rfl)
  have e3 : ∀ k : Fin 128, ridx_main_v2 (ix4 n p r o) k = ix2 k o := fun k => funext fun a => Fin.ext (by
    match a with | ⟨0, _⟩ => rfl | ⟨1, _⟩ => rfl)
  have e4 : idx_main_v3 (idx_main_v4 (ix4 n p r o)) = ix1 o := funext fun a => Fin.ext (by match a with | ⟨0, _⟩ => rfl)
  have e5 : ∀ k : Fin 128, lidx_main_v6 (ix4 n p r o) k = ix4 n p r k := fun k => funext fun a => Fin.ext (by
    match a with | ⟨0, _⟩ => rfl | ⟨1, _⟩ => rfl | ⟨2, _⟩ => rfl | ⟨3, _⟩ => rfl)
  have e6 : ∀ k : Fin 128, ridx_main_v6 (ix4 n p r o) k = ix2 k o := fun k => funext fun a => Fin.ext (by
    match a with | ⟨0, _⟩ => rfl | ⟨1, _⟩ => rfl)
  have e7 : idx_main_v7 (idx_main_v8 (ix4 n p r o)) = ix1 o := funext fun a => Fin.ext (by match a with | ⟨0, _⟩ => rfl)
  simp only [e1, e2, e3, e4, e5, e6, e7]
  rfl

/-- THE REFERENCE'S RESULT at (n, r, k): the score of left node r against right node k of sample n, the degree the
    sample's converted integer degree, the relation weights and biases the host's sums over the two relations. -/
theorem result_apply (x0 : (⟨S4096x2x64x128, .f32⟩ : BufTy).Contents (Elt Ideal)) (x1 : (⟨S4096, .i32⟩ : BufTy).Contents (Elt Ideal))
    (x2 : (⟨S2x128x128, .f32⟩ : BufTy).Contents (Elt Ideal)) (x3 : (⟨S2x128, .f32⟩ : BufTy).Contents (Elt Ideal))
    (x4 : (⟨S128x128, .f32⟩ : BufTy).Contents (Elt Ideal)) (x5 : (⟨S128, .f32⟩ : BufTy).Contents (Elt Ideal))
    (n : Fin 4096) (r k : Fin 64) :
    val_main_v20 (F := Ideal) x0 x1 x2 x3 x4 x5 (ix3 n r k)
      = score (fun d => x0 (ix4 n 0 r d)) (fun d => x0 (ix4 n 1 k d)) (val_main_v10 (F := Ideal) x1 (ix1 n))
          (fun d o => val_main_v0 (F := Ideal) x2 (ix2 d o)) (fun d o => x4 (ix2 d o))
          (fun o => val_main_v1 (F := Ideal) x3 (ix1 o)) (fun o => x5 (ix1 o)) := by
  rw [val_main_v20_apply]
  unfold score
  refine Finset.sum_congr rfl fun o _ => ?_
  rw [val_main_v17_apply, val_main_v16_apply, val_main_v19_apply, val_main_v18_apply, left_idx, right_idx, hidden_apply, hidden_apply]

end Cert.ReferenceIdeal.RefScore

end
-- ==== Proof.SampleScores.lean ====
/-
  The result array both programs end with, as one function of the arguments.

  From the node features [4096, 2, 64, 128], the samples' degrees [4096] (already converted to floats), the summed
  relation weights [128, 128] and biases [128], and the self-loop weights [128, 128] and biases [128]: entry
  (n, i, j) of the result [4096, 64, 64] is the score of left node i against right node j of sample n.
-/
import proofs.«158311_j9929964389089_2_alg».proof.Proof.PairScore

noncomputable section

namespace Cert.PairScore

open Idealize.ShloMosaic Idealize.ShloMosaic.ValueIdx

/-- The table of scores of all samples. -/
def sampleScores (X : (⟨4, ![4096, 2, 64, 128]⟩ : Shape).Idx → EReal) (g : (⟨1, ![4096]⟩ : Shape).Idx → EReal)
    (Ws : (⟨2, ![128, 128]⟩ : Shape).Idx → EReal) (bs : (⟨1, ![128]⟩ : Shape).Idx → EReal)
    (W0 : (⟨2, ![128, 128]⟩ : Shape).Idx → EReal) (b0 : (⟨1, ![128]⟩ : Shape).Idx → EReal) :
    (⟨3, ![4096, 64, 64]⟩ : Shape).Idx → EReal := fun i =>
  score (fun d => X (ix4 (⟨(i 0).val, (i 0).isLt⟩ : Fin 4096) (0 : Fin 2) (⟨(i 1).val, (i 1).isLt⟩ : Fin 64) d))
    (fun d => X (ix4 (⟨(i 0).val, (i 0).isLt⟩ : Fin 4096) (1 : Fin 2) (⟨(i 2).val, (i 2).isLt⟩ : Fin 64) d))
    (g (ix1 (⟨(i 0).val, (i 0).isLt⟩ : Fin 4096)))
    (fun d o => Ws (ix2 d o)) (fun d o => W0 (ix2 d o)) (fun o => bs (ix1 o)) (fun o => b0 (ix1 o))

/-- Read at (n, i, j). -/
theorem sampleScores_apply (X : (⟨4, ![4096, 2, 64, 128]⟩ : Shape).Idx → EReal) (g : (⟨1, ![4096]⟩ : Shape).Idx → EReal)
    (Ws : (⟨2, ![128, 128]⟩ : Shape).Idx → EReal) (bs : (⟨1, ![128]⟩ : Shape).Idx → EReal)
    (W0 : (⟨2, ![128, 128]⟩ : Shape).Idx → EReal) (b0 : (⟨1, ![128]⟩ : Shape).Idx → EReal)
    (n : Fin 4096) (i j : Fin 64) :
    sampleScores X g Ws bs W0 b0 (ix3 n i j)
      = score (fun d => X (ix4 n (0 : Fin 2) i d)) (fun d => X (ix4 n (1 : Fin 2) j d)) (g (ix1 n))
          (fun d o => Ws (ix2 d o)) (fun d o => W0 (ix2 d o)) (fun o => bs (ix1 o)) (fun o => b0 (ix1 o)) := rfl

end Cert.PairScore

end
-- ==== Proof.BlockForms.lean ====
/-
  The layout steps of one grid block, read at an index.

  A grid block holds 128 samples.  Its node features [128, 2, 64, 128] are read one pair index at a time as
  [128, 1, 64, 128]; the unit pair axis is dropped, and the 128 × 64 nodes are laid out as the 8192 rows of a
  matrix [8192, 128] — node r of sample a is row a · 64 + r — so that one matrix product serves every node; the
  product's rows are then taken apart again into [128, 64, 128].  The degrees arrive as a column [128, 1], are given
  two unit axes [128, 1, 1] and broadcast over nodes and features.  The scores [128, 64, 64] are stored with the two
  node axes laid out along 4096 lanes: score (i, j) of sample a at lane i · 64 + j.  Each of these steps only moves
  entries; this module says where each entry comes from.  Also the per-sample matrix product of the two hidden
  blocks, at the ideal values: a plain sum over the 128 hidden features.
-/
import proofs.«158311_j9929964389089_2_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.BlockForms

open Cert.KernelIdeal Cert.KernelIdeal.Gen Idealize.ShloMosaic Idealize.ShloMosaic.ValueIdx

variable {α : Type}

/-- Dropping the unit pair axis: [128, 1, 64, 128] read as [128, 64, 128]. -/
theorem drop_pair_apply (u : S128x1x64x128.Idx → α) (h : S128x1x64x128.ShapeCasts S128x64x128)
    (a : Fin 128) (r : Fin 64) (d : Fin 128) :
    shapeCast S128x64x128 u h (ix3 a r d) = u (ix4 a (0 : Fin 1) r d) :=
  shapeCast_apply u h (ix3 a r d) (ix4 a (0 : Fin 1) r d) (by
    rw [Shape.rowMajor_val_four, Shape.rowMajor_val_three]
    show ((a.val * 1 + 0) * 64 + r.val) * 128 + d.val = (a.val * 64 + r.val) * 128 + d.val
    omega)

/-- The nodes of the block as matrix rows: row a · 64 + r is node r of sample a. -/
theorem flatten_nodes_apply (u : S128x64x128.Idx → α) (h : S128x64x128.ShapeCasts S8192x128)
    (a : Fin 128) (r : Fin 64) (d : Fin 128) (hR : a.val * 64 + r.val < 8192) :
    shapeCast S8192x128 u h (ix2 ⟨a.val * 64 + r.val, hR⟩ d) = u (ix3 a r d) :=
  shapeCast_apply u h (ix2 ⟨a.val * 64 + r.val, hR⟩ d) (ix3 a r d) (by
    rw [Shape.rowMajor_val_three, Shape.rowMajor_val_two]
    rfl)

/-- And back: node r of sample a is matrix row a · 64 + r. -/
theorem unflatten_nodes_apply (v : S8192x128.Idx → α) (h : S8192x128.ShapeCasts S128x64x128)
    (a : Fin 128) (r : Fin 64) (o : Fin 128) (hR : a.val * 64 + r.val < 8192) :
    shapeCast S128x64x128 v h (ix3 a r o) = v (ix2 ⟨a.val * 64 + r.val, hR⟩ o) :=
  shapeCast_apply v h (ix3 a r o) (ix2 ⟨a.val * 64 + r.val, hR⟩ o) (by
    rw [Shape.rowMajor_val_three, Shape.rowMajor_val_two]
    rfl)

/-- The degree column [128, 1] with a second unit axis, read at (a, 0, 0): sample a's degree. -/
theorem degree_col_apply (v : S128x1.Idx → α) (h1 : S128x1.ShapeCasts S128x1) (h2 : S128x1.ShapeCasts S128x1x1) (a : Fin 128) :
    shapeCast S128x1x1 (shapeCast S128x1 v h1) h2 (ix3 a (0 : Fin 1) (0 : Fin 1)) = v (ix2 a (0 : Fin 1)) := by
  rw [shapeCast_self]
  exact shapeCast_apply v h2 (ix3 a (0 : Fin 1) (0 : Fin 1)) (ix2 a (0 : Fin 1)) (by
    rw [Shape.rowMajor_val_three, Shape.rowMajor_val_two]
    show a.val * 1 + 0 = (a.val * 1 + 0) * 1 + 0
    omega)

/-- The degrees broadcast over nodes and features: every entry of sample a sees sample a's degree. -/
theorem degree_bcast_apply (g : S128x1x1.Idx → α) (h : S128x1x1.Broadcasts S128x64x128)
    (a : Fin 128) (r : Fin 64) (o : Fin 128) :
    broadcastTo S128x64x128 g h (ix3 a r o) = g (ix3 a (0 : Fin 1) (0 : Fin 1)) :=
  broadcastTo_apply g h (ix3 a r o) (ix3 a (0 : Fin 1) (0 : Fin 1)) (fun ax => by
    match ax with
    | ⟨0, _⟩ => show a.val = if (128 : Nat) = 1 then 0 else a.val; rw [if_neg (by decide)]
    | ⟨1, _⟩ => show (0 : Nat) = if (1 : Nat) = 1 then 0 else r.val; rw [if_pos rfl]
    | ⟨2, _⟩ => show (0 : Nat) = if (1 : Nat) = 1 then 0 else o.val; rw [if_pos rfl])

/-- The scores laid out along the lanes: lane i · 64 + j of sample a is score (i, j). -/
theorem lanes_apply (z : S128x64x64.Idx → α) (h : S128x64x64.ShapeCasts S128x4096)
    (a : Fin 128) (i j : Fin 64) (hQ : i.val * 64 + j.val < 4096) :
    shapeCast S128x4096 z h (ix2 a ⟨i.val * 64 + j.val, hQ⟩) = z (ix3 a i j) :=
  shapeCast_apply z h (ix2 a ⟨i.val * 64 + j.val, hQ⟩) (ix3 a i j) (by
    rw [Shape.rowMajor_val_three, Shape.rowMajor_val_two]
    show (a.val * 64 + i.val) * 64 + j.val = a.val * 4096 + (i.val * 64 + j.val)
    omega)

end Cert.KernelIdeal.BlockForms

end
-- ==== Proof.PairProduct.lean ====
/-
  The per-sample product of the two hidden blocks, at the ideal values.

  The block's last matrix product takes the left nodes' hidden rows [128, 64, 128] and the right nodes' hidden rows
  [128, 64, 128], keeps the sample axis as a batch axis and contracts the hidden feature (the last axis of both).
  Into the zero accumulator, read at (a, i, j), it is the sum over the 128 hidden features o of
  left (a, i, o) · right (a, j, o): the contraction index, a one-axis multi-index, is re-indexed by its coordinate.
-/
import proofs.«158311_j9929964389089_2_alg».proof.Proof.Gen.KernelIdeal
import Idealize.ShloMosaic.Lib.ValueIdx
import Idealize.ShloMosaic.PureOps.Ideal.Laws

noncomputable section

namespace Cert.KernelIdeal.PairProduct

open Cert.KernelIdeal Cert.KernelIdeal.Gen Idealize.ShloMosaic Idealize.ShloMosaic.ValueIdx

/-! The operands' indices at an output index and a contraction index, one axis at a time: the batch axis and the
    node axis come from the output index, the hidden-feature axis from the contraction index. -/

theorem lhs_0 (i : S128x64x64.Idx) (q : dot_S128x64x128_S128x64x128_S128x64x64_2_2_1_1_0_0.contr.Idx) : (dot_S128x64x128_S128x64x128_S128x64x64_2_2_1_1_0_0.lhsIdx i q 0).val = (i 0).val := by
  unfold DotDims.lhsIdx
  rw [dif_pos (show (0 : Fin S128x64x128.rank) ∈ dot_S128x64x128_S128x64x128_S128x64x64_2_2_1_1_0_0.lhsBatch by decide)]
  rfl
theorem lhs_1 (i : S128x64x64.Idx) (q : dot_S128x64x128_S128x64x128_S128x64x64_2_2_1_1_0_0.contr.Idx) : (dot_S128x64x128_S128x64x128_S128x64x64_2_2_1_1_0_0.lhsIdx i q 1).val = (i 1).val := by
  unfold DotDims.lhsIdx
  rw [dif_neg (show ¬(1 : Fin S128x64x128.rank) ∈ dot_S128x64x128_S128x64x128_S128x64x64_2_2_1_1_0_0.lhsBatch by decide),
    dif_pos (show (1 : Fin S128x64x128.rank) ∈ dot_S128x64x128_S128x64x128_S128x64x64_2_2_1_1_0_0.lhsNonContracting by decide)]
  rfl
theorem lhs_2 (i : S128x64x64.Idx) (q : dot_S128x64x128_S128x64x128_S128x64x64_2_2_1_1_0_0.contr.Idx) : (dot_S128x64x128_S128x64x128_S128x64x64_2_2_1_1_0_0.lhsIdx i q 2).val = (q ⟨0, by decide⟩).val :=
  dot_S128x64x128_S128x64x128_S128x64x64_2_2_1_1_0_0.lhsIdx_val_of_single rfl i q
theorem rhs_0 (i : S128x64x64.Idx) (q : dot_S128x64x128_S128x64x128_S128x64x64_2_2_1_1_0_0.contr.Idx) : (dot_S128x64x128_S128x64x128_S128x64x64_2_2_1_1_0_0.rhsIdx i q 0).val = (i 0).val := by
  unfold DotDims.rhsIdx
  rw [dif_pos (show (0 : Fin S128x64x128.rank) ∈ dot_S128x64x128_S128x64x128_S128x64x64_2_2_1_1_0_0.rhsBatch by decide)]
  rfl
theorem rhs_1 (i : S128x64x64.Idx) (q : dot_S128x64x128_S128x64x128_S128x64x64_2_2_1_1_0_0.contr.Idx) : (dot_S128x64x128_S128x64x128_S128x64x64_2_2_1_1_0_0.rhsIdx i q 1).val = (i 2).val := by
  unfold DotDims.rhsIdx
  rw [dif_neg (show ¬(1 : Fin S128x64x128.rank) ∈ dot_S128x64x128_S128x64x128_S128x64x64_2_2_1_1_0_0.rhsBatch by decide),
    dif_pos (show (1 : Fin S128x64x128.rank) ∈ dot_S128x64x128_S128x64x128_S128x64x64_2_2_1_1_0_0.rhsNonContracting by decide)]
  rfl
theorem rhs_2 (i : S128x64x64.Idx) (q : dot_S128x64x128_S128x64x128_S128x64x64_2_2_1_1_0_0.contr.Idx) : (dot_S128x64x128_S128x64x128_S128x64x64_2_2_1_1_0_0.rhsIdx i q 2).val = (q ⟨0, by decide⟩).val :=
  dot_S128x64x128_S128x64x128_S128x64x64_2_2_1_1_0_0.rhsIdx_val_of_single rfl i q

/-- The per-sample product of the hidden blocks into the zero accumulator, read at (a, i, j). -/
theorem pair_matmul_apply {φ₁ φ₂ : FTy} (l : FVec Ideal S128x64x128 φ₁) (r : FVec Ideal S128x64x128 φ₂)
    (a : Fin 128) (i j : Fin 64) :
    matmul dot_S128x64x128_S128x64x128_S128x64x64_2_2_1_1_0_0 none l r (constant (F := Ideal) S128x64x64 .f32 0x00000000#32) (ix3 a i j)
      = ∑ o : Fin 128, l (ix3 a i o) * r (ix3 a j o) := by
  show FloatOps.matmul dot_S128x64x128_S128x64x128_S128x64x64_2_2_1_1_0_0 none l r (constant (F := Ideal) S128x64x64 .f32 0x00000000#32) (ix3 a i j) = _
  rw [Ideal.matmul_constant_zero_apply, ← Equiv.sum_comp (contrEquiv1 dot_S128x64x128_S128x64x128_S128x64x64_2_2_1_1_0_0 128 rfl rfl).symm]
  refine Finset.sum_congr rfl fun o _ => ?_
  have hk := contrEquiv1_symm_val dot_S128x64x128_S128x64x128_S128x64x64_2_2_1_1_0_0 128 rfl rfl o
  have el : dot_S128x64x128_S128x64x128_S128x64x64_2_2_1_1_0_0.lhsIdx (ix3 a i j) ((contrEquiv1 dot_S128x64x128_S128x64x128_S128x64x64_2_2_1_1_0_0 128 rfl rfl).symm o) = ix3 a i o := funext fun ax => Fin.ext (by
    match ax with
    | ⟨0, _⟩ => exact lhs_0 _ _
    | ⟨1, _⟩ => exact lhs_1 _ _
    | ⟨2, _⟩ => exact (lhs_2 _ _).trans hk)
  have er : dot_S128x64x128_S128x64x128_S128x64x64_2_2_1_1_0_0.rhsIdx (ix3 a i j) ((contrEquiv1 dot_S128x64x128_S128x64x128_S128x64x64_2_2_1_1_0_0 128 rfl rfl).symm o) = ix3 a j o := funext fun ax => Fin.ext (by
    match ax with
    | ⟨0, _⟩ => exact rhs_0 _ _
    | ⟨1, _⟩ => exact rhs_1 _ _
    | ⟨2, _⟩ => exact (rhs_2 _ _).trans hk)
  rw [el, er]

end Cert.KernelIdeal.PairProduct

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.BodyScore.lean ====
/-
  What one grid block's body stores, read at an index: the score of a left node against a right node.

  The body loads the block's degrees [128, 1], the two weight matrices [128, 128], the two bias rows [1, 128] and,
  one pair index at a time, the node features [128, 1, 64, 128].  For each pair index it lays the 128 × 64 nodes out
  as matrix rows, multiplies by the summed relation weights and by the self-loop weights (each product plus its bias
  row), takes the rows apart again, weighs the relation part by the sample's degree, adds the self-loop part and
  rectifies: entry (a, r, o) is the hidden row of node r of sample a at feature o.  The two hidden blocks are then
  multiplied sample by sample over the hidden feature, and the 64 × 64 scores of each sample are stored along 4096
  lanes.  Read at sample a and lane i · 64 + j the stored value is therefore the score of left node i against right
  node j of sample a.
-/
import proofs.«158311_j9929964389089_2_alg».proof.Proof.Gen.KernelIdeal.Frame
import proofs.«158311_j9929964389089_2_alg».proof.Proof.PairScore
import proofs.«158311_j9929964389089_2_alg».proof.Proof.BlockForms
import proofs.«158311_j9929964389089_2_alg».proof.Proof.PairProduct
import proofs.«158311_j9929964389089_2_alg».proof.Proof.LibPlainDot
import proofs.«158311_j9929964389089_2_alg».proof.Proof.LibRows

noncomputable section

namespace Cert.KernelIdeal.BodyScore

open Cert.KernelIdeal Cert.KernelIdeal.Gen Idealize.ShloMosaic Idealize.ShloMosaic.ValueIdx
open Cert.PairScore Cert.KernelIdeal.BlockForms Cert.KernelIdeal.PairProduct

/-- One linear layer over the flattened nodes: the product with a weight matrix into the zero accumulator plus the
    bias row broadcast down the rows, read at row R and feature o. -/
theorem linear_apply (xr : FVec Ideal S8192x128 .bf16) (w : FVec Ideal S128x128 .bf16) (b : FVec Ideal S1x128 .f32)
    (hb : S1x128.Broadcasts S8192x128) (R : Fin 8192) (o : Fin 128) :
    addf (matmul dot_S8192x128_S128x128_S8192x128_1_0_0_1_n_n none xr w (constant (F := Ideal) S8192x128 .f32 0x00000000#32)) (broadcastTo S8192x128 b hb) (ix2 R o)
      = (∑ d : Fin 128, xr (ix2 R d) * w (ix2 d o)) + b (ix2 (0 : Fin 1) o) := by
  rw [addf_apply]
  refine congrArg₂ (fun u v : EReal => u + v) ?_ ?_
  · exact Cert.Lib.PlainDot.matmul_plain_zero_apply (M := 8192) (K := 128) (N := 128) none xr w R o
  · exact Cert.Lib.Rows.broadcastTo_row_apply b hb R o

/-- The flattened, format-changed node features of one pair index, read at row a · 64 + r: node r of sample a. -/
theorem node_rows_apply (u : FVec Ideal S128x1x64x128 .f32) (a : Fin 128) (r : Fin 64) (d : Fin 128) (hR : a.val * 64 + r.val < 8192) :
    k0_pay8 (F := Ideal) u (ix2 ⟨a.val * 64 + r.val, hR⟩ d) = u (ix4 a (0 : Fin 1) r d) := by
  unfold k0_pay8
  refine (flatten_nodes_apply _ _ a r d hR).trans ?_
  rw [truncf_apply]
  exact drop_pair_apply u _ a r d

/-- One linear layer of one pair index, from the loaded features, weights and bias row: at row a · 64 + r and
    feature o, the sum over the 128 input features of node r of sample a plus the bias. -/
theorem layer_apply (u : FVec Ideal S128x1x64x128 .f32) (w : FVec Ideal S128x128 .bf16) (b : FVec Ideal S1x128 .f32)
    (a : Fin 128) (r : Fin 64) (o : Fin 128) (hR : a.val * 64 + r.val < 8192) :
    addf (matmul dot_S8192x128_S128x128_S8192x128_1_0_0_1_n_n none
          (shapeCast S8192x128 (truncf .bf16 (shapeCast S128x64x128 u shapeCasts_S128x1x64x128_S128x64x128) bitsLt_bf16_f32)
            shapeCasts_S128x64x128_S8192x128)
          (shapeCast S128x128 w shapeCasts_S128x128_S128x128) (constant (F := Ideal) S8192x128 .f32 0x00000000#32))
        (broadcastTo S8192x128 (shapeCast S1x128 b shapeCasts_S1x128_S1x128) broadcasts_S1x128_S8192x128)
        (ix2 ⟨a.val * 64 + r.val, hR⟩ o)
      = (∑ d : Fin 128, u (ix4 a (0 : Fin 1) r d) * w (ix2 d o)) + b (ix2 (0 : Fin 1) o) := by
  refine (linear_apply _ _ _ _ ⟨a.val * 64 + r.val, hR⟩ o).trans ?_
  rw [shapeCast_self, shapeCast_self]
  refine congrArg (fun s : EReal => s + b (ix2 (0 : Fin 1) o)) (Finset.sum_congr rfl fun d _ => ?_)
  refine congrArg (fun s : EReal => s * w (ix2 d o)) ?_
  exact node_rows_apply u a r d hR

/-- The rectified combination of the two layers at (a, r, o): the hidden row of node r of sample a, from the
    loaded degrees, weights, bias rows and one pair index's features. -/
theorem combine_apply (v0 : FVec Ideal S128x1 .f32) (v3 v5 : FVec Ideal S128x128 .bf16) (v7 v9 : FVec Ideal S1x128 .f32)
    (u : FVec Ideal S128x1x64x128 .f32) (a : Fin 128) (r : Fin 64) (o : Fin 128) :
    maximumf
        (addf
          (mulf
            (broadcastTo S128x64x128
              (shapeCast S128x1x1 (shapeCast S128x1 v0 shapeCasts_S128x1_S128x1) shapeCasts_S128x1_S128x1x1)
              broadcasts_S128x1x1_S128x64x128)
            (shapeCast S128x64x128
              (addf
                (matmul dot_S8192x128_S128x128_S8192x128_1_0_0_1_n_n none
                  (shapeCast S8192x128
                    (truncf .bf16 (shapeCast S128x64x128 u shapeCasts_S128x1x64x128_S128x64x128) bitsLt_bf16_f32)
                    shapeCasts_S128x64x128_S8192x128)
                  (shapeCast S128x128 v3 shapeCasts_S128x128_S128x128) (constant (F := Ideal) S8192x128 .f32 0x00000000#32))
                (broadcastTo S8192x128 (shapeCast S1x128 v7 shapeCasts_S1x128_S1x128) broadcasts_S1x128_S8192x128))
              shapeCasts_S8192x128_S128x64x128))
          (shapeCast S128x64x128
            (addf
              (matmul dot_S8192x128_S128x128_S8192x128_1_0_0_1_n_n none
                (shapeCast S8192x128
                  (truncf .bf16 (shapeCast S128x64x128 u shapeCasts_S128x1x64x128_S128x64x128) bitsLt_bf16_f32)
                  shapeCasts_S128x64x128_S8192x128)
                (shapeCast S128x128 v5 shapeCasts_S128x128_S128x128) (constant (F := Ideal) S8192x128 .f32 0x00000000#32))
              (broadcastTo S8192x128 (shapeCast S1x128 v9 shapeCasts_S1x128_S1x128) broadcasts_S1x128_S8192x128))
            shapeCasts_S8192x128_S128x64x128))
        (broadcast S128x64x128 (FloatOps.ofBits (F := Ideal) .f32 0x00000000#32)) (ix3 a r o)
      = PairScore.hidden (fun d => u (ix4 a (0 : Fin 1) r d)) (v0 (ix2 a (0 : Fin 1))) (fun d o => v3 (ix2 d o)) (fun d o => v5 (ix2 d o))
          (fun o => v7 (ix2 (0 : Fin 1) o)) (fun o => v9 (ix2 (0 : Fin 1) o)) o := by
  have hR : a.val * 64 + r.val < 8192 := by have := a.isLt; have := r.isLt; omega
  rw [maximumf_apply, addf_apply, mulf_apply, broadcast_apply]
  unfold PairScore.hidden
  refine congrArg₂ (fun s t : EReal => max s t) (congrArg₂ (fun s t : EReal => s + t) (congrArg₂ (fun s t : EReal => s * t) ?_ ?_) ?_) rfl
  · exact (degree_bcast_apply _ _ a r o).trans (degree_col_apply v0 _ _ a)
  · exact (unflatten_nodes_apply _ _ a r o hR).trans (layer_apply u v3 v7 a r o hR)
  · exact (unflatten_nodes_apply _ _ a r o hR).trans (layer_apply u v5 v9 a r o hR)

/-- The left nodes' hidden block at (a, r, o): the hidden row of node r of sample a. -/
theorem hidden_left_apply (v0 : FVec Ideal S128x1 .f32) (v3 v5 : FVec Ideal S128x128 .bf16) (v7 v9 : FVec Ideal S1x128 .f32)
    (v11 : FVec Ideal S128x1x64x128 .f32) (a : Fin 128) (r : Fin 64) (o : Fin 128) :
    k0_pay7 (F := Ideal) v0 v3 v5 v7 v9 v11 (ix3 a r o)
      = PairScore.hidden (fun d => v11 (ix4 a (0 : Fin 1) r d)) (v0 (ix2 a (0 : Fin 1))) (fun d o => v3 (ix2 d o)) (fun d o => v5 (ix2 d o))
          (fun o => v7 (ix2 (0 : Fin 1) o)) (fun o => v9 (ix2 (0 : Fin 1) o)) o := by
  unfold k0_pay7 k0_pay2 k0_pay3 k0_pay4 k0_pay5 k0_pay6
  rw [truncf_apply]
  exact combine_apply v0 v3 v5 v7 v9 v11 a r o

/-- WHAT THE BODY STORES at sample a and lane i · 64 + j, from its loaded values: the score of left node i against
    right node j of sample a. -/
theorem stored_apply (v0 : FVec Ideal S128x1 .f32) (v3 v5 : FVec Ideal S128x128 .bf16) (v7 v9 : FVec Ideal S1x128 .f32)
    (v11 v29 : FVec Ideal S128x1x64x128 .f32) (a : Fin 128) (i j : Fin 64) (hQ : i.val * 64 + j.val < 4096) :
    k0_pay1 (F := Ideal) (k0_pay2 v0) (k0_pay4 v5) (k0_pay6 v9) (k0_pay7 v0 v3 v5 v7 v9 v11) (k0_pay8 v29) (k0_pay9 v3 v7 v29)
        (constant S8192x128 .f32 0x00000000#32) (ix2 a ⟨i.val * 64 + j.val, hQ⟩)
      = PairScore.score (fun d => v11 (ix4 a (0 : Fin 1) i d)) (fun d => v29 (ix4 a (0 : Fin 1) j d)) (v0 (ix2 a (0 : Fin 1)))
          (fun d o => v3 (ix2 d o)) (fun d o => v5 (ix2 d o)) (fun o => v7 (ix2 (0 : Fin 1) o)) (fun o => v9 (ix2 (0 : Fin 1) o)) := by
  unfold k0_pay1
  refine (lanes_apply _ _ a i j hQ).trans ?_
  refine (pair_matmul_apply _ _ a i j).trans ?_
  unfold PairScore.score
  refine Finset.sum_congr rfl fun o _ => ?_
  refine congrArg₂ (fun s t : EReal => s * t) (hidden_left_apply v0 v3 v5 v7 v9 v11 a i o) ?_
  unfold k0_pay9 k0_pay8 k0_pay2 k0_pay3 k0_pay4 k0_pay5 k0_pay6
  rw [truncf_apply]
  exact combine_apply v0 v3 v5 v7 v9 v29 a j o

end Cert.KernelIdeal.BodyScore

end
-- ==== Proof.ArrayScore.lean ====
/-
  From grid blocks to the whole array: after the region, the kernel's output array [4096, 4096] holds, at sample n
  and lane q, the score of left node q / 64 against right node q % 64 of sample n.

  Grid point t handles samples 128 t … 128 t + 127: its blocks of the node features, of the degree column and of the
  output are rows 128 t … of their arrays, while the weight matrices and bias rows are the same whole arrays at every
  point.  So what point t writes back is block t of one function of the arrays as the region finds them, the 32
  blocks tile the output array, and the array after the region is that function.
-/
import proofs.«158311_j9929964389089_2_alg».proof.Proof.Gen.KernelIdeal.Frame
import proofs.«158311_j9929964389089_2_alg».proof.Proof.BodyScore
import Idealize.ShloMosaic.Lib.Pipeline.Value

set_option maxRecDepth 16384

noncomputable section

namespace Cert.KernelIdeal.ArrayScore

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.BodyScore

theorem hz2 : (![0, 0] : Fin 2 → Nat) = fun _ => 0 := funext fun a => by fin_cases a <;> rfl

/-- The scores of all samples laid out along lanes, as one function of the six arrays the region reads: the node
    features, the degree column, the two weight matrices and the two bias rows. -/
def laneScores (A0 : S4096x2x64x128.Idx → EReal) (A1 : S4096x1.Idx → EReal) (A2 A3 : S128x128.Idx → EReal)
    (A4 A5 : S1x128.Idx → EReal) : S4096x4096.Idx → EReal := fun q =>
  PairScore.score
    (fun d => A0 (ix4 (⟨(q 0).val, idx2_lt0 q⟩ : Fin 4096) (0 : Fin 2) (⟨(q 1).val / 64, by have := idx2_lt1 q; omega⟩ : Fin 64) d))
    (fun d => A0 (ix4 (⟨(q 0).val, idx2_lt0 q⟩ : Fin 4096) (1 : Fin 2) (⟨(q 1).val % 64, by omega⟩ : Fin 64) d))
    (A1 (ix2 (⟨(q 0).val, idx2_lt0 q⟩ : Fin 4096) (0 : Fin 1)))
    (fun d o => A2 (ix2 d o)) (fun d o => A3 (ix2 d o)) (fun o => A4 (ix2 (0 : Fin 1) o)) (fun o => A5 (ix2 (0 : Fin 1) o))

/-- What the body leaves in the output buffer, from the input blocks, at sample a and lane i · 64 + j. -/
theorem block_apply (x0 : Vec Ideal S128x2x64x128 .f32) (x1 : Vec Ideal S128x1 .f32) (x2 x3 : Vec Ideal S128x128 .bf16)
    (x4 x5 : Vec Ideal S1x128 .f32) (a : Fin 128) (i j : Fin 64) (hQ : i.val * 64 + j.val < 4096) :
    out0_6 (F := Ideal) x0 x1 x2 x3 x4 x5 (ix2 a ⟨i.val * 64 + j.val, hQ⟩)
      = PairScore.score (fun d => x0 (ix4 a (0 : Fin 2) i d)) (fun d => x0 (ix4 a (1 : Fin 2) j d)) (x1 (ix2 a (0 : Fin 1)))
          (fun d o => x2 (ix2 d o)) (fun d o => x3 (ix2 d o)) (fun o => x4 (ix2 (0 : Fin 1) o)) (fun o => x5 (ix2 (0 : Fin 1) o)) := by
  unfold out0_6
  rw [View.canon_unit_zero hz2]
  simp only [View.ld_unit_zero (S := S128x1) hz2, View.ld_unit_zero (S := S128x128) hz2, View.ld_unit_zero (S := S1x128) hz2]
  refine (stored_apply x1 x2 x3 x4 x5 (View.ld x0 r0_3) (View.ld x0 r0_4) a i j hQ).trans ?_
  have e0 : ∀ (r : Fin 64) (d : Fin 128), View.ld x0 r0_3 (ix4 a (0 : Fin 1) r d) = x0 (ix4 a (0 : Fin 2) r d) := fun r d =>
    congrArg x0 (funext fun ax => Fin.ext (by
      match ax with
      | ⟨0, _⟩ => show 0 + 1 * a.val = a.val; omega
      | ⟨1, _⟩ => show 0 + 1 * 0 = 0; omega
      | ⟨2, _⟩ => show 0 + 1 * r.val = r.val; omega
      | ⟨3, _⟩ => show 0 + 1 * d.val = d.val; omega))
  have e1 : ∀ (r : Fin 64) (d : Fin 128), View.ld x0 r0_4 (ix4 a (0 : Fin 1) r d) = x0 (ix4 a (1 : Fin 2) r d) := fun r d =>
    congrArg x0 (funext fun ax => Fin.ext (by
      match ax with
      | ⟨0, _⟩ => show 0 + 1 * a.val = a.val; omega
      | ⟨1, _⟩ => show 1 + 1 * 0 = 1; omega
      | ⟨2, _⟩ => show 0 + 1 * r.val = r.val; omega
      | ⟨3, _⟩ => show 0 + 1 * d.val = d.val; omega))
  simp only [e0, e1]

/-- A block whose samples are samples 128 T … 128 T + 127 of the arrays (the features' and the degrees' rows
    offset by 128 T, the weights and biases the whole arrays) leaves, at its sample a and lane q, the lane score of
    sample 128 T + a of the arrays. -/
theorem block_rows_apply (x0 : Vec Ideal S128x2x64x128 .f32) (x1 : Vec Ideal S128x1 .f32) (x2 x3 : Vec Ideal S128x128 .bf16)
    (x4 x5 : Vec Ideal S1x128 .f32)
    (A0 : S4096x2x64x128.Idx → EReal) (A1 : S4096x1.Idx → EReal) (A2 A3 : S128x128.Idx → EReal) (A4 A5 : S1x128.Idx → EReal)
    (T : Nat) (hT : T ≤ 31)
    (h0 : ∀ (a : Fin 128) (p : Fin 2) (r : Fin 64) (d : Fin 128),
      x0 (ix4 a p r d) = A0 (ix4 (⟨T * 128 + a.val, by have := a.isLt; omega⟩ : Fin 4096) p r d))
    (h1 : ∀ a : Fin 128, x1 (ix2 a (0 : Fin 1)) = A1 (ix2 (⟨T * 128 + a.val, by have := a.isLt; omega⟩ : Fin 4096) (0 : Fin 1)))
    (h2 : ∀ (d o : Fin 128), x2 (ix2 d o) = A2 (ix2 d o)) (h3 : ∀ (d o : Fin 128), x3 (ix2 d o) = A3 (ix2 d o))
    (h4 : ∀ o : Fin 128, x4 (ix2 (0 : Fin 1) o) = A4 (ix2 (0 : Fin 1) o))
    (h5 : ∀ o : Fin 128, x5 (ix2 (0 : Fin 1) o) = A5 (ix2 (0 : Fin 1) o))
    (a : Fin 128) (q : Fin 4096) :
    out0_6 (F := Ideal) x0 x1 x2 x3 x4 x5 (ix2 a q)
      = laneScores A0 A1 A2 A3 A4 A5 (ix2 (⟨T * 128 + a.val, by have := a.isLt; omega⟩ : Fin 4096) q) := by
  have hqlt := q.isLt
  have hq : q = ⟨(q.val / 64) * 64 + q.val % 64, by omega⟩ := Fin.ext (by show q.val = (q.val / 64) * 64 + q.val % 64; omega)
  refine (congrArg (fun z => out0_6 (F := Ideal) x0 x1 x2 x3 x4 x5 (ix2 a z)) hq).trans ?_
  refine (block_apply x0 x1 x2 x3 x4 x5 a ⟨q.val / 64, by omega⟩ ⟨q.val % 64, by omega⟩ (by show (q.val / 64) * 64 + q.val % 64 < 4096; omega)).trans ?_
  unfold laneScores
  simp only [h0, h1, h2, h3, h4, h5]

variable (m : (ℓ : Loc nD τ sig) → Buf (Elt Ideal) ℓ)

/-- The printed index maps, decided over the 32 grid points: the features' and the degrees' blocks move with the
    output's along the sample axis and sit at zero on every other axis; the weights' and biases' blocks stay at zero. -/
theorem idx_facts : ∀ t : Fin cfg0.N,
    win0_0.index t (0 : Fin 4) = win0_6.index t (0 : Fin 2) ∧ win0_0.index t (1 : Fin 4) = 0
    ∧ win0_0.index t (2 : Fin 4) = 0 ∧ win0_0.index t (3 : Fin 4) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 31 :=
  (by decide +kernel : ∀ t : Fin grid0.N, _)

/-- Every block of 128 samples is some grid point's. -/
theorem idx_onto : ∀ q0 : Fin 32, ∃ t : Fin cfg0.N, win0_6.index t = ![q0.val, 0] :=
  (by decide +kernel : ∀ q0 : Fin 32, ∃ t : Fin grid0.N, win0_6.index t = ![q0.val, 0])

/-- WHAT POINT t WRITES BACK is block t of the lane scores of the arrays as the region finds them. -/
theorem flushed_eq (c : Dev nD) (t : Fin cfg0.N) :
    (dats m 0 c).flushed 6 t = ((cfg0.win 6).blk t).view.read (Elt Ideal)
      (laneScores (V m c main_arg0) (V m c main_v7) (V m c main_v1) (V m c main_v2) (V m c main_v4) (V m c main_v5)) := by
  show (cfg0.win 6).cut (grid0.coords t) ((dats m 0 c).after 6 t) = _
  rw [after0_6]
  obtain ⟨e00, e01, e02, e03, e10, e11, e20, e21, e30, e31, e40, e41, e50, e51, e61, e6b⟩ := idx_facts t
  funext y
  obtain ⟨a, q, rfl⟩ : ∃ (a : Fin 128) (q : Fin 4096), y = ix2 a q :=
    ⟨⟨(y 0).val, (y 0).isLt⟩, ⟨(y 1).val, (y 1).isLt⟩, funext fun ax => by match ax with | ⟨0, _⟩ => rfl | ⟨1, _⟩ => rfl⟩
  show out0_6 (F := Ideal) (iblk m c 0 t) (iblk m c 1 t) (iblk m c 2 t) (iblk m c 3 t) (iblk m c 4 t) (iblk m c 5 t) (ix2 a q)
    = laneScores (V m c main_arg0) (V m c main_v7) (V m c main_v1) (V m c main_v2) (V m c main_v4) (V m c main_v5)
        (((cfg0.win 6).blk t).view.emb (ix2 a q))
  have ha := a.isLt
  refine (block_rows_apply (iblk m c 0 t) (iblk m c 1 t) (iblk m c 2 t) (iblk m c 3 t) (iblk m c 4 t) (iblk m c 5 t)
    (V m c main_arg0) (V m c main_v7) (V m c main_v1) (V m c main_v2) (V m c main_v4) (V m c main_v5)
    (win0_6.index t (0 : Fin 2)) e6b ?_ ?_ ?_ ?_ ?_ ?_ a q).trans ?_
  · intro a p r d
    show V m c main_arg0 (((cfg0.win 0).blk t).view.emb (ix4 a p r d)) = _
    refine congrArg (V m c main_arg0) (funext fun ax => Fin.ext ?_)
    match ax with
    | ⟨0, _⟩ => show win0_0.index t (0 : Fin 4) * 128 + 1 * a.val = win0_6.index t (0 : Fin 2) * 128 + a.val; omega
    | ⟨1, _⟩ => show win0_0.index t (1 : Fin 4) * 2 + 1 * p.val = p.val; omega
    | ⟨2, _⟩ => show win0_0.index t (2 : Fin 4) * 64 + 1 * r.val = r.val; omega
    | ⟨3, _⟩ => show win0_0.index t (3 : Fin 4) * 128 + 1 * d.val = d.val; omega
  · intro a
    show V m c main_v7 (((cfg0.win 1).blk t).view.emb (ix2 a (0 : Fin 1))) = _
    refine congrArg (V m c main_v7) (funext fun ax => Fin.ext ?_)
    match ax with
    | ⟨0, _⟩ => show win0_1.index t (0 : Fin 2) * 128 + 1 * a.val = win0_6.index t (0 : Fin 2) * 128 + a.val; omega
    | ⟨1, _⟩ => show win0_1.index t (1 : Fin 2) * 1 + 1 * 0 = 0; omega
  · intro d o
    show V m c main_v1 (((cfg0.win 2).blk t).view.emb (ix2 d o)) = _
    refine congrArg (V m c main_v1) (funext fun ax => Fin.ext ?_)
    match ax with
    | ⟨0, _⟩ => show win0_2.index t (0 : Fin 2) * 128 + 1 * d.val = d.val; omega
    | ⟨1, _⟩ => show win0_2.index t (1 : Fin 2) * 128 + 1 * o.val = o.val; omega
  · intro d o
    show V m c main_v2 (((cfg0.win 3).blk t).view.emb (ix2 d o)) = _
    refine congrArg (V m c main_v2) (funext fun ax => Fin.ext ?_)
    match ax with
    | ⟨0, _⟩ => show win0_3.index t (0 : Fin 2) * 128 + 1 * d.val = d.val; omega
    | ⟨1, _⟩ => show win0_3.index t (1 : Fin 2) * 128 + 1 * o.val = o.val; omega
  · intro o
    show V m c main_v4 (((cfg0.win 4).blk t).view.emb (ix2 (0 : Fin 1) o)) = _
    refine congrArg (V m c main_v4) (funext fun ax => Fin.ext ?_)
    match ax with
    | ⟨0, _⟩ => show win0_4.index t (0 : Fin 2) * 1 + 1 * 0 = 0; omega
    | ⟨1, _⟩ => show win0_4.index t (1 : Fin 2) * 128 + 1 * o.val = o.val; omega
  · intro o
    show V m c main_v5 (((cfg0.win 5).blk t).view.emb (ix2 (0 : Fin 1) o)) = _
    refine congrArg (V m c main_v5) (funext fun ax => Fin.ext ?_)
    match ax with
    | ⟨0, _⟩ => show win0_5.index t (0 : Fin 2) * 1 + 1 * 0 = 0; omega
    | ⟨1, _⟩ => show win0_5.index t (1 : Fin 2) * 128 + 1 * o.val = o.val; omega
  · refine congrArg (laneScores (V m c main_arg0) (V m c main_v7) (V m c main_v1) (V m c main_v2) (V m c main_v4) (V m c main_v5))
      (funext fun ax => Fin.ext ?_)
    match ax with
    | ⟨0, _⟩ => show win0_6.index t (0 : Fin 2) * 128 + a.val = win0_6.index t (0 : Fin 2) * 128 + 1 * a.val; omega
    | ⟨1, _⟩ => show q.val = win0_6.index t (1 : Fin 2) * 4096 + 1 * q.val; omega

/-- An index of the output array is in point t's block iff each coordinate is in the block's range on its axis. -/
theorem mem_blk (t : Fin cfg0.N) (i : S4096x4096.Idx) :
    i ∈ ((cfg0.win 6).blk t).view.set ↔ ∀ a : Fin 2, win0_6.index t a * S128x4096.size a ≤ (i a).val
      ∧ (i a).val < win0_6.index t a * S128x4096.size a + S128x4096.size a := by
  show i ∈ ((View.whole main_v8).slice (win0_6.rect t)).set ↔ _
  rw [View.set_slice_whole, Rect.mem_set_unit]
  exact Iff.rfl

/-- The 32 blocks tile the output array: sample n lies in the block of point n / 128. -/
theorem covered (i : S4096x4096.Idx) :
    ∃ t : Fin cfg0.N, (cfg0.win 6).flush t = true ∧ i ∈ ((cfg0.win 6).blk t).view.set := by
  have hi0 : (i 0).val < 4096 := (i 0).isLt
  have hi1 : (i 1).val < 4096 := (i 1).isLt
  obtain ⟨t, ht⟩ := idx_onto ⟨(i 0).val / 128, by omega⟩
  have q0 : win0_6.index t (0 : Fin 2) = (i 0).val / 128 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 4096 ≤ (i 1).val ∧ (i 1).val < win0_6.index t (1 : Fin 2) * 4096 + 4096; omega

/-- THE OUTPUT ARRAY after the region: the lane scores of the arrays as the region finds them. -/
theorem final (c : Dev nD) : (dats m 0 c).arrAt 6 cfg0.N
    = laneScores (V m c main_arg0) (V m c main_v7) (V m c main_v1) (V m c main_v2) (V m c main_v4) (V m c main_v5) :=
  (dats m 0 c).arrAt_eq_of_cover 6 _ (fun t _ => flushed_eq m c t) covered

end Cert.KernelIdeal.ArrayScore

end
-- ==== Proof.EntryArrays.lean ====
/-
  The arrays as the region finds them, from the arguments.

  Before the region the host sums the relation weights and the relation biases over the two relations, changes the
  two weight matrices' float format (the identity at the ideal values), lays the two bias vectors out as rows
  [1, 128], converts the integer degrees to floats and lays them out as a column [4096, 1].  The node features
  reach the region as launched.
-/
import proofs.«158311_j9929964389089_2_alg».proof.Proof.Gen.KernelIdeal.Frame
import Idealize.ShloMosaic.Lib.StableHlo.Run
import Idealize.ShloMosaic.Lib.ValueIdx

noncomputable section

namespace Cert.KernelIdeal.EntryArrays

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The degree column: the converted degrees, reshaped. -/
theorem degrees (c : Dev nD) : (V m c main_v7 : S4096x1.Idx → EReal)
    = shapeCast S4096x1 (sitofp (F := Ideal) .f32 (m ((c : Thread nD τ).loc main_arg1))) shapeCasts_S4096_S4096x1 := by
  show StableHlo.after hostOps0 (fun b => m (c, b)) (Proc.devRef .tc main_v7) = _
  after_results <;> rfl

/-- The summed relation weights, format-changed. -/
theorem rel_weights (c : Dev nD) : (V m c main_v1 : S128x128.Idx → EReal)
    = truncf .bf16 (Host.reduceAdd (F := Ideal) (m ((c : Thread nD τ).loc main_arg2)) (constant (F := Ideal) S_ .f32 0x00000000#32)
        reducesTo_S2x128x128_S128x128_d0 h_S_) bitsLt_bf16_f32 := by
  show StableHlo.after hostOps0 (fun b => m (c, b)) (Proc.devRef .tc main_v1) = _
  after_results <;> rfl

/-- The self-loop weights, format-changed. -/
theorem self_weights (c : Dev nD) : (V m c main_v2 : S128x128.Idx → EReal)
    = truncf (F := Ideal) (s := S128x128) (φ := .f32) .bf16 (m ((c : Thread nD τ).loc main_arg4)) bitsLt_bf16_f32 := by
  show StableHlo.after hostOps0 (fun b => m (c, b)) (Proc.devRef .tc main_v2) = _
  after_results <;> rfl

/-- The summed relation biases as a row. -/
theorem rel_bias (c : Dev nD) : (V m c main_v4 : S1x128.Idx → EReal)
    = shapeCast S1x128 (Host.reduceAdd (F := Ideal) (m ((c : Thread nD τ).loc main_arg3)) (constant (F := Ideal) S_ .f32 0x00000000#32)
        reducesTo_S2x128_S128_d0 h_S_) shapeCasts_S128_S1x128 := by
  show StableHlo.after hostOps0 (fun b => m (c, b)) (Proc.devRef .tc main_v4) = _
  after_results <;> rfl

/-- The self-loop biases as a row. -/
theorem self_bias (c : Dev nD) : (V m c main_v5 : S1x128.Idx → EReal)
    = shapeCast S1x128 (m ((c : Thread nD τ).loc main_arg5) : S128.Idx → EReal) shapeCasts_S128_S1x128 := by
  show StableHlo.after hostOps0 (fun b => m (c, b)) (Proc.devRef .tc main_v5) = _
  after_results <;> rfl

end Cert.KernelIdeal.EntryArrays

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.KernelRun.lean ====
/-
  The kernel program's run, read: it ends with its result array at the table of scores of all samples.

  After the region the output array [4096, 4096] holds every sample's 64 × 64 scores along 4096 lanes; the one host
  operation after the region reshapes it to [4096, 64, 64], so that entry (n, i, j) is lane i · 64 + j of sample n:
  the score of left node i against right node j.  The arrays the region read are the arguments themselves (the node
  features, the self-loop weights), or the arguments summed over the two relations, or laid out as a row or a column:
  read at an index they are the arguments' entries.
-/
import proofs.«158311_j9929964389089_2_alg».proof.Proof.Gen.KernelIdeal.Frame
import proofs.«158311_j9929964389089_2_alg».proof.Proof.ArrayScore
import proofs.«158311_j9929964389089_2_alg».proof.Proof.EntryArrays
import proofs.«158311_j9929964389089_2_alg».proof.Proof.SampleScores
import proofs.«158311_j9929964389089_2_alg».proof.Proof.LibRows
import proofs.«158311_j9929964389089_2_alg».proof.Proof.LibColumns
import Idealize.ShloMosaic.Lib.StableHlo.Run

noncomputable section

namespace Cert.KernelIdeal.KernelRun

open Cert.KernelIdeal Cert.KernelIdeal.Gen Idealize.ShloMosaic Idealize.ShloMosaic.TcCoe Idealize.SL.Sem
open Idealize.ShloMosaic.ValueIdx Idealize.ShloMosaic.StableHlo
open Cert.PairScore Cert.KernelIdeal.ArrayScore Cert.KernelIdeal.EntryArrays

variable (m : (ℓ : Loc nD τ sig) → Buf (Elt Ideal) ℓ) (ρ : Dev nD → PrngReg)

/-- The kernel's result as a function of the arguments at launch: the table of scores, the degrees the converted
    integer degrees, the relation weights and biases the host's sums over the two relations. -/
def result (c : Dev nD) : S4096x64x64.Idx → EReal :=
  sampleScores (m ((c : Thread nD τ).loc main_arg0))
    (sitofp (F := Ideal) .f32 (m ((c : Thread nD τ).loc main_arg1)))
    (Host.reduceAdd (F := Ideal) (m ((c : Thread nD τ).loc main_arg2)) (constant (F := Ideal) S_ .f32 0x00000000#32)
      reducesTo_S2x128x128_S128x128_d0 h_S_)
    (Host.reduceAdd (F := Ideal) (m ((c : Thread nD τ).loc main_arg3)) (constant (F := Ideal) S_ .f32 0x00000000#32)
      reducesTo_S2x128_S128_d0 h_S_)
    (m ((c : Thread nD τ).loc main_arg4)) (m ((c : Thread nD τ).loc main_arg5))

/-- The lane scores of the arrays as the region finds them, at sample n and lane q, are the result's entry
    (n, q / 64, q % 64). -/
theorem lanes_of_args (c : Dev nD) (n : Fin 4096) (q : Fin 4096) :
    laneScores (V m c main_arg0) (V m c main_v7) (V m c main_v1) (V m c main_v2) (V m c main_v4) (V m c main_v5) (ix2 n q)
      = result m c (ix3 n (⟨q.val / 64, by have := q.isLt; omega⟩ : Fin 64) (⟨q.val % 64, by omega⟩ : Fin 64)) := by
  unfold laneScores result
  rw [sampleScores_apply, V_main_arg0, degrees, rel_weights, self_weights, rel_bias, self_bias]
  simp only [Cert.Columns.shapeCast_a_a1_apply, Cert.Lib.Rows.shapeCast_vec_row_apply, truncf_apply]

/-- What the host operation after the region leaves in the result buffer. -/
theorem tail_eq (c : Dev nD) :
    (Pipeline.afterTail₀ cfgs (dats m) 0 (V0 m) [hostOps1] c main_v9 : S4096x64x64.Idx → EReal) = result m c := by
  have hw : (Pipeline.withArrays (cfgs 0).spec c (V0 m c) (fun w => (dats m 0 c).arrAt w (cfgs 0).N) (Proc.devRef .tc main_v8)
        : S4096x4096.Idx → EReal)
      = laneScores (V m c main_arg0) (V m c main_v7) (V m c main_v1) (V m c main_v2) (V m c main_v4) (V m c main_v5) :=
    (Pipeline.withArrays_arr spec0 launch0.win.arr_inj c _ _ 6).trans (final m c)
  unfold Pipeline.afterTail₀
  show StableHlo.after hostOps1 _ (Proc.devRef .tc main_v9) = _
  after_results
  funext i
  obtain ⟨n, a, b, rfl⟩ : ∃ (n : Fin 4096) (a b : Fin 64), i = ix3 n a b := ⟨i 0, i 1, i 2, eq_ix3 i⟩
  show shapeCast S4096x64x64 (Pipeline.withArrays (cfgs 0).spec c (V0 m c) (fun w => (dats m 0 c).arrAt w (cfgs 0).N)
      (Proc.devRef .tc main_v8)) shapeCasts_S4096x4096_S4096x64x64 (ix3 n a b) = _
  rw [hw]
  have ha := a.isLt; have hb := b.isLt
  have hQ : a.val * 64 + b.val < 4096 := by omega
  refine (shapeCast_apply _ shapeCasts_S4096x4096_S4096x64x64 (ix3 n a b) (ix2 n (⟨a.val * 64 + b.val, hQ⟩ : Fin 4096)) (by
    rw [Shape.rowMajor_val_three, Shape.rowMajor_val_two]
    show n.val * 4096 + (a.val * 64 + b.val) = (n.val * 64 + a.val) * 64 + b.val
    omega)).trans ?_
  refine (lanes_of_args m c n ⟨a.val * 64 + b.val, hQ⟩).trans ?_
  have e1 : (⟨(a.val * 64 + b.val) / 64, by omega⟩ : Fin 64) = a := Fin.ext (by show (a.val * 64 + b.val) / 64 = a.val; omega)
  have e2 : (⟨(a.val * 64 + b.val) % 64, by omega⟩ : Fin 64) = b := Fin.ext (by show (a.val * 64 + b.val) % 64 = b.val; omega)
  exact congrArg₂ (fun x y => result m c (ix3 n x y)) e1 e2

/-- THE RUN: every weakly fair execution of the kernel program terminates, faultless, with the result buffer at the
    table of scores of the arguments and the arguments unchanged. -/
theorem run : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v9 (Pipeline.mem_restRefs_of main_v9 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KernelRun

end
-- ==== Proof.lean ====
/-
  Pairwise node scores of a degree-weighted relational layer: the kernel against its reference.

  Every sample n has two groups of 64 nodes, every node a feature row of 128 reals, and a degree g_n.  A node's hidden
  row is max (g_n · (x · Ws + bs) + (x · W0 + b0)) 0, with Ws and bs the relation weights and biases summed over the
  two relations and W0, b0 the self-loop layer; the result [4096, 64, 64] holds, at (n, i, j), the dot product of the
  hidden rows of left node i and right node j of sample n (Proof/PairScore.lean, Proof/SampleScores.lean).

  The reference computes the hidden rows of all nodes at once and contracts the left half against the right half
  sample by sample (Proof/RefScore.lean: its result at an index is that score).  The kernel walks 32 blocks of 128
  samples: per block it forms the hidden rows of the two node groups by two matrix products over the flattened nodes,
  multiplies the two hidden blocks sample by sample, and stores the 64 × 64 scores of each sample along 4096 lanes
  (Proof/BlockForms.lean, Proof/PairProduct.lean, Proof/BodyScore.lean: what the body stores at an index);
  the blocks tile the output array (Proof/ArrayScore.lean), which the host reshapes to [4096, 64, 64], and the arrays
  the blocks were cut from are the arguments, summed over the relations or laid out as a row or a column
  (Proof/EntryArrays.lean, Proof/KernelRun.lean).  At the ideal values both programs spell the same sums and products
  in the same order, so no algebraic law and no finiteness of the inputs is used: the two results are one function of
  the arguments.  The kernel's idealization rewrote nothing, so that it preserves the kernel is trivially true.
-/
import proofs.«158311_j9929964389089_2_alg».proof.Defs
import proofs.«158311_j9929964389089_2_alg».proof.Proof.Gen.Kernel
import proofs.«158311_j9929964389089_2_alg».proof.Proof.Gen.Kernel.Skeleton
import proofs.«158311_j9929964389089_2_alg».proof.Proof.Gen.Kernel.Launch
import proofs.«158311_j9929964389089_2_alg».proof.Proof.Gen.Kernel.Points
import proofs.«158311_j9929964389089_2_alg».proof.Proof.Gen.Kernel.Frame
import proofs.«158311_j9929964389089_2_alg».proof.Proof.Gen.KernelIdeal
import proofs.«158311_j9929964389089_2_alg».proof.Proof.Gen.KernelIdeal.Skeleton
import proofs.«158311_j9929964389089_2_alg».proof.Proof.Gen.KernelIdeal.Launch
import proofs.«158311_j9929964389089_2_alg».proof.Proof.Gen.KernelIdeal.Points
import proofs.«158311_j9929964389089_2_alg».proof.Proof.Gen.KernelIdeal.Frame
import proofs.«158311_j9929964389089_2_alg».proof.Proof.Gen.ReferenceIdeal
import proofs.«158311_j9929964389089_2_alg».proof.Proof.Gen.Pre_finite_inputs
import proofs.«158311_j9929964389089_2_alg».proof.Proof.Gen.ReferenceIdeal.Run
import proofs.«158311_j9929964389089_2_alg».proof.Proof.Gen.ReferenceIdeal.Read
import proofs.«158311_j9929964389089_2_alg».proof.Proof.RefScore
import proofs.«158311_j9929964389089_2_alg».proof.Proof.SampleScores
import proofs.«158311_j9929964389089_2_alg».proof.Proof.KernelRun
import Idealize.ShloMosaic.Adequacy
import Idealize.ShloMosaic.Init

noncomputable section

/-! ## The reference's result as one function of its arguments -/

namespace Cert.ReferenceIdeal.RefResult

open Cert.ReferenceIdeal Cert.ReferenceIdeal.Gen Cert.ReferenceIdeal.Read Idealize.ShloMosaic Idealize.ShloMosaic.ValueIdx
open Cert.PairScore

/-- The reference's result array is the table of scores of all samples. -/
theorem result_eq (x0 : (⟨S4096x2x64x128, .f32⟩ : BufTy).Contents (Elt Ideal)) (x1 : (⟨S4096, .i32⟩ : BufTy).Contents (Elt Ideal))
    (x2 : (⟨S2x128x128, .f32⟩ : BufTy).Contents (Elt Ideal)) (x3 : (⟨S2x128, .f32⟩ : BufTy).Contents (Elt Ideal))
    (x4 : (⟨S128x128, .f32⟩ : BufTy).Contents (Elt Ideal)) (x5 : (⟨S128, .f32⟩ : BufTy).Contents (Elt Ideal)) :
    val_main_v20 (F := Ideal) x0 x1 x2 x3 x4 x5
      = sampleScores x0 (val_main_v10 (F := Ideal) x1) (val_main_v0 (F := Ideal) x2) (val_main_v1 (F := Ideal) x3) x4 x5 := by
  funext i
  obtain ⟨n, a, b, rfl⟩ : ∃ (n : Fin 4096) (a b : Fin 64), i = ix3 n a b := ⟨i 0, i 1, i 2, eq_ix3 i⟩
  rw [Cert.ReferenceIdeal.RefScore.result_apply, sampleScores_apply]

end Cert.ReferenceIdeal.RefResult

/-! ## The claims -/

namespace Cert.Proof

open Idealize.ShloMosaic Idealize.SL.Sem

/-- The kernel runs, faultless, and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the table of scores of those arguments. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefResult.result_eq,
    (hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
